-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x16384 .f32) (main_arg1 : FVec F S16384x128 .f32) (main_arg2 : FVec F S128x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x16384 : Shape := ⟨2, ![16384, 16384]⟩
abbrev S16384x128 : Shape := ⟨2, ![16384, 128]⟩
abbrev S128x128 : Shape := ⟨2, ![128, 128]⟩
abbrev S2x64x128 : Shape := ⟨3, ![2, 64, 128]⟩
abbrev S_ : Shape := ⟨0, ![]⟩
abbrev S2x64 : Shape := ⟨2, ![2, 64]⟩
abbrev S2x64x1 : Shape := ⟨3, ![2, 64, 1]⟩
abbrev S2x64x64 : Shape := ⟨3, ![2, 64, 64]⟩
abbrev S64x64 : Shape := ⟨2, ![64, 64]⟩
abbrev S1x64x64 : Shape := ⟨3, ![1, 64, 64]⟩
abbrev S2 : Shape := ⟨1, ![2]⟩
abbrev S2x1x1 : Shape := ⟨3, ![2, 1, 1]⟩
abbrev S1024x2048 : Shape := ⟨2, ![1024, 2048]⟩
abbrev S1024x128 : Shape := ⟨2, ![1024, 128]⟩
abbrev S2048x128 : Shape := ⟨2, ![2048, 128]⟩

abbrev nBuf : Space → Nat
  | .hbm => 80
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S2x64x128, .f32⟩
  | .hbm, ⟨4, _⟩ => ⟨S_, .f32⟩
  | .hbm, ⟨5, _⟩ => ⟨S2x64, .f32⟩
  | .hbm, ⟨6, _⟩ => ⟨S2x64x1, .f32⟩
  | .hbm, ⟨7, _⟩ => ⟨S_, .f32⟩
  | .hbm, ⟨8, _⟩ => ⟨S2x64x1, .f32⟩
  | .hbm, ⟨9, _⟩ => ⟨S2x64x1, .f32⟩
  | .hbm, ⟨10, _⟩ => ⟨S2x64x128, .f32⟩
  | .hbm, ⟨11, _⟩ => ⟨S2x64x128, .f32⟩
  | .hbm, ⟨12, _⟩ => ⟨S2x64x64, .f32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S1x64x64, .f32⟩
  | .hbm, ⟨24, _⟩ => ⟨S2x64x64, .f32⟩
  | .hbm, ⟨25, _⟩ => ⟨S2x64x64, .f32⟩
  | .hbm, ⟨26, _⟩ => ⟨S2x64x64, .f32⟩
  | .hbm, ⟨27, _⟩ => ⟨S_, .f32⟩
  | .hbm, ⟨28, _⟩ => ⟨S2, .f32⟩
  | .hbm, ⟨29, _⟩ => ⟨S2x1x1, .f32⟩
  | .hbm, ⟨30, _⟩ => ⟨S2x1x1, .f32⟩
  | .hbm, ⟨31, _⟩ => ⟨S2x64x64, .f32⟩
  | .hbm, ⟨32, _⟩ => ⟨S2x64x64, .f32⟩
  | .hbm, ⟨33, _⟩ => ⟨S2x64x64, .f32⟩
  | .hbm, ⟨34, _⟩ => ⟨S2x64x64, .f32⟩
  | .hbm, ⟨35, _⟩ => ⟨S2x64x64, .f32⟩
  | .hbm, ⟨36, _⟩ => ⟨S_, .f32⟩
  | .hbm, ⟨37, _⟩ => ⟨S2x64x64, .f32⟩
  | .hbm, ⟨38, _⟩ => ⟨S2x64x64, .f32⟩
  | .hbm, ⟨39, _⟩ => ⟨S2x64x64, .f32⟩
  | .hbm, ⟨40, _⟩ => ⟨S_, .f32⟩
  | .hbm, ⟨41, _⟩ => ⟨S2x64x64, .f32⟩
  | .hbm, ⟨42, _⟩ => ⟨S2x64x64, .f32⟩
  | .hbm, ⟨43, _⟩ => ⟨S2x64x64, .f32⟩
  | .hbm, ⟨44, _⟩ => ⟨S2x64x64, .f32⟩
  | .hbm, ⟨45, _⟩ => ⟨S2x64x64, .f32⟩
  | .hbm, ⟨46, _⟩ => ⟨S_, .f32⟩
  | .hbm, ⟨47, _⟩ => ⟨S2x64x64, .f32⟩
  | .hbm, ⟨48, _⟩ => ⟨S2x64x64, .f32⟩
  | .hbm, ⟨49, _⟩ => ⟨S2x64x64, .f32⟩
  | .hbm, ⟨50, _⟩ => ⟨S_, .f32⟩
  | .hbm, ⟨51, _⟩ => ⟨S2x64x64, .f32⟩
  | .hbm, ⟨52, _⟩ => ⟨S2x64x64, .f32⟩
  | .hbm, ⟨53, _⟩ => ⟨S2x64x64, .f32⟩
  | .hbm, ⟨54, _⟩ => ⟨S2x64x64, .f32⟩
  | .hbm, ⟨55, _⟩ => ⟨S2x64x64, .f32⟩
  | .hbm, ⟨56, _⟩ => ⟨S_, .f32⟩
  | .hbm, ⟨57, _⟩ => ⟨S2x64x64, .f32⟩
  | .hbm, ⟨58, _⟩ => ⟨S2x64x64, .f32⟩
  | .hbm, ⟨59, _⟩ => ⟨S2x64x64, .f32⟩
  | .hbm, ⟨60, _⟩ => ⟨S_, .f32⟩
  | .hbm, ⟨61, _⟩ => ⟨S2x64x64, .f32⟩
  | .hbm, ⟨62, _⟩ => ⟨S2x64x64, .f32⟩
  | .hbm, ⟨63, _⟩ => ⟨S2x64x64, .f32⟩
  | .hbm, ⟨64, _⟩ => ⟨S2x64x64, .f32⟩
  | .hbm, ⟨65, _⟩ => ⟨S2x64x64, .f32⟩
  | .hbm, ⟨66, _⟩ => ⟨S_, .f32⟩
  | .hbm, ⟨67, _⟩ => ⟨S2x64x64, .f32⟩
  | .hbm, ⟨68, _⟩ => ⟨S2x64x64, .f32⟩
  | .hbm, ⟨69, _⟩ => ⟨S2x64x64, .f32⟩
  | .hbm, ⟨70, _⟩ => ⟨S_, .f32⟩
  | .hbm, ⟨71, _⟩ => ⟨S2x64x64, .f32⟩
  | .hbm, ⟨72, _⟩ => ⟨S2x64x64, .f32⟩
  | .hbm, ⟨73, _⟩ => ⟨S2x64x64, .f32⟩
  | .hbm, ⟨74, _⟩ => ⟨S2x64x128, .f32⟩
  | .hbm, ⟨75, _⟩ => ⟨S2x1x1, .f32⟩
  | .hbm, ⟨76, _⟩ => ⟨S2x64x128, .f32⟩
  | .hbm, ⟨77, _⟩ => ⟨S2x64x128, .f32⟩
  | .hbm, ⟨78, _⟩ => ⟨S128x128, .f32⟩
  | .hbm, ⟨79, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S128x128_S2x64x128 : S128x128.ShapeCasts S2x64x128
  reducesTo_S2x64x128_S2x64_d2 : S2x64x128.ReducesTo [2] S2x64
  h_S_ : 0 < S_.numel
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x128_0_1_2 : S2x64x1.BroadcastsInDim S2x64x128 (![0, 1, 2] : Fin 3 → Fin S2x64x128.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S2x64x64_0_1_2 : S1x64x64.BroadcastsInDim S2x64x64 (![0, 1, 2] : Fin 3 → Fin S2x64x64.rank)
  reducesTo_S2x64x64_S2_d1_2 : S2x64x64.ReducesTo [1, 2] S2
  bcast_S2_S2x1x1_0 : S2.BroadcastsInDim S2x1x1 (![0] : Fin 1 → Fin S2x1x1.rank)
  bcast_S2x1x1_S2x64x64_0_1_2 : S2x1x1.BroadcastsInDim S2x64x64 (![0, 1, 2] : Fin 3 → Fin S2x64x64.rank)
  bcast_S64x64_S2x64x64_1_2 : S64x64.BroadcastsInDim S2x64x64 (![1, 2] : Fin 2 → Fin S2x64x64.rank)
  bcast_S_S2x64x64 : S_.BroadcastsInDim S2x64x64 (![] : Fin 0 → Fin S2x64x64.rank)
  bcast_S2x1x1_S2x64x128_0_1_2 : S2x1x1.BroadcastsInDim S2x64x128 (![0, 1, 2] : Fin 3 → Fin S2x64x128.rank)
  shapeCasts_S2x64x128_S128x128 : S2x64x128.ShapeCasts S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  inb_S1024x2048_S1024x2048_0_0 : ∀ a, (![0, 0] : Fin 2 → Nat) a + S1024x2048.size a ≤ S1024x2048.size a
  h_S1024x2048 : 0 < S1024x2048.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S2x64x128_S2x64x128_S2x64x64_2_2_1_1_0_0_wf : DotDims.WF S2x64x128 S2x64x128 S2x64x64 [2] [2] [1] [1] [0] [0]
  dot_S2x64x64_S2x64x64_S2x64x64_2_1_1_2_0_0_wf : DotDims.WF S2x64x64 S2x64x64 S2x64x64 [2] [1] [1] [2] [0] [0]
  dot_S2x64x64_S2x64x128_S2x64x128_2_1_1_2_0_0_wf : DotDims.WF S2x64x64 S2x64x128 S2x64x128 [2] [1] [1] [2] [0] [0]
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)

variable [Facts₀]

def dot_S2x64x128_S2x64x128_S2x64x64_2_2_1_1_0_0 : DotDims S2x64x128 S2x64x128 S2x64x64 where
  lhsContracting := [2]
  rhsContracting := [2]
  lhsNonContracting := [1]
  rhsNonContracting := [1]
  lhsBatch := [0]
  rhsBatch := [0]
  wf := dot_S2x64x128_S2x64x128_S2x64x64_2_2_1_1_0_0_wf
def dot_S2x64x64_S2x64x64_S2x64x64_2_1_1_2_0_0 : DotDims S2x64x64 S2x64x64 S2x64x64 where
  lhsContracting := [2]
  rhsContracting := [1]
  lhsNonContracting := [1]
  rhsNonContracting := [2]
  lhsBatch := [0]
  rhsBatch := [0]
  wf := dot_S2x64x64_S2x64x64_S2x64x64_2_1_1_2_0_0_wf
def dot_S2x64x64_S2x64x128_S2x64x128_2_1_1_2_0_0 : DotDims S2x64x64 S2x64x128 S2x64x128 where
  lhsContracting := [2]
  rhsContracting := [1]
  lhsNonContracting := [1]
  rhsNonContracting := [2]
  lhsBatch := [0]
  rhsBatch := [0]
  wf := dot_S2x64x64_S2x64x128_S2x64x128_2_1_1_2_0_0_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩
abbrev S2x64x128 : Shape := ⟨3, ![2, 64, 128]⟩
abbrev S_ : Shape := ⟨0, ![]⟩
abbrev S2x64 : Shape := ⟨2, ![2, 64]⟩
abbrev S2x64x1 : Shape := ⟨3, ![2, 64, 1]⟩
abbrev S2x64x64 : Shape := ⟨3, ![2, 64, 64]⟩
abbrev S64x64 : Shape := ⟨2, ![64, 64]⟩
abbrev S1x64x64 : Shape := ⟨3, ![1, 64, 64]⟩
abbrev S2 : Shape := ⟨1, ![2]⟩
abbrev S2x1x1 : Shape := ⟨3, ![2, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S16384x128, .f32⟩
  | .hbm, ⟨4, _⟩ => ⟨S2x64x128, .f32⟩
  | .hbm, ⟨5, _⟩ => ⟨S_, .f32⟩
  | .hbm, ⟨6, _⟩ => ⟨S2x64, .f32⟩
  | .hbm, ⟨7, _⟩ => ⟨S2x64x1, .f32⟩
  | .hbm, ⟨8, _⟩ => ⟨S_, .f32⟩
  | .hbm, ⟨9, _⟩ => ⟨S2x64x1, .f32⟩
  | .hbm, ⟨10, _⟩ => ⟨S2x64x1, .f32⟩
  | .hbm, ⟨11, _⟩ => ⟨S2x64x128, .f32⟩
  | .hbm, ⟨12, _⟩ => ⟨S2x64x128, .f32⟩
  | .hbm, ⟨13, _⟩ => ⟨S2x64x64, .f32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S1x64x64, .f32⟩
  | .hbm, ⟨25, _⟩ => ⟨S2x64x64, .f32⟩
  | .hbm, ⟨26, _⟩ => ⟨S2x64x64, .f32⟩
  | .hbm, ⟨27, _⟩ => ⟨S2x64x64, .f32⟩
  | .hbm, ⟨28, _⟩ => ⟨S_, .f32⟩
  | .hbm, ⟨29, _⟩ => ⟨S2, .f32⟩
  | .hbm, ⟨30, _⟩ => ⟨S2x1x1, .f32⟩
  | .hbm, ⟨31, _⟩ => ⟨S2x1x1, .f32⟩
  | .hbm, ⟨32, _⟩ => ⟨S2x64x64, .f32⟩
  | .hbm, ⟨33, _⟩ => ⟨S2x64x64, .f32⟩
  | .hbm, ⟨34, _⟩ => ⟨S2x64x64, .f32⟩
  | .hbm, ⟨35, _⟩ => ⟨S2x64x64, .f32⟩
  | .hbm, ⟨36, _⟩ => ⟨S2x64x64, .f32⟩
  | .hbm, ⟨37, _⟩ => ⟨S_, .f32⟩
  | .hbm, ⟨38, _⟩ => ⟨S2x64x64, .f32⟩
  | .hbm, ⟨39, _⟩ => ⟨S2x64x64, .f32⟩
  | .hbm, ⟨40, _⟩ => ⟨S2x64x64, .f32⟩
  | .hbm, ⟨41, _⟩ => ⟨S_, .f32⟩
  | .hbm, ⟨42, _⟩ => ⟨S2x64x64, .f32⟩
  | .hbm, ⟨43, _⟩ => ⟨S2x64x64, .f32⟩
  | .hbm, ⟨44, _⟩ => ⟨S2x64x64, .f32⟩
  | .hbm, ⟨45, _⟩ => ⟨S2x64x64, .f32⟩
  | .hbm, ⟨46, _⟩ => ⟨S2x64x64, .f32⟩
  | .hbm, ⟨47, _⟩ => ⟨S_, .f32⟩
  | .hbm, ⟨48, _⟩ => ⟨S2x64x64, .f32⟩
  | .hbm, ⟨49, _⟩ => ⟨S2x64x64, .f32⟩
  | .hbm, ⟨50, _⟩ => ⟨S2x64x64, .f32⟩
  | .hbm, ⟨51, _⟩ => ⟨S_, .f32⟩
  | .hbm, ⟨52, _⟩ => ⟨S2x64x64, .f32⟩
  | .hbm, ⟨53, _⟩ => ⟨S2x64x64, .f32⟩
  | .hbm, ⟨54, _⟩ => ⟨S2x64x64, .f32⟩
  | .hbm, ⟨55, _⟩ => ⟨S2x64x64, .f32⟩
  | .hbm, ⟨56, _⟩ => ⟨S2x64x64, .f32⟩
  | .hbm, ⟨57, _⟩ => ⟨S_, .f32⟩
  | .hbm, ⟨58, _⟩ => ⟨S2x64x64, .f32⟩
  | .hbm, ⟨59, _⟩ => ⟨S2x64x64, .f32⟩
  | .hbm, ⟨60, _⟩ => ⟨S2x64x64, .f32⟩
  | .hbm, ⟨61, _⟩ => ⟨S_, .f32⟩
  | .hbm, ⟨62, _⟩ => ⟨S2x64x64, .f32⟩
  | .hbm, ⟨63, _⟩ => ⟨S2x64x64, .f32⟩
  | .hbm, ⟨64, _⟩ => ⟨S2x64x64, .f32⟩
  | .hbm, ⟨65, _⟩ => ⟨S2x64x64, .f32⟩
  | .hbm, ⟨66, _⟩ => ⟨S2x64x64, .f32⟩
  | .hbm, ⟨67, _⟩ => ⟨S_, .f32⟩
  | .hbm, ⟨68, _⟩ => ⟨S2x64x64, .f32⟩
  | .hbm, ⟨69, _⟩ => ⟨S2x64x64, .f32⟩
  | .hbm, ⟨70, _⟩ => ⟨S2x64x64, .f32⟩
  | .hbm, ⟨71, _⟩ => ⟨S_, .f32⟩
  | .hbm, ⟨72, _⟩ => ⟨S2x64x64, .f32⟩
  | .hbm, ⟨73, _⟩ => ⟨S2x64x64, .f32⟩
  | .hbm, ⟨74, _⟩ => ⟨S2x64x64, .f32⟩
  | .hbm, ⟨75, _⟩ => ⟨S2x64x128, .f32⟩
  | .hbm, ⟨76, _⟩ => ⟨S2x1x1, .f32⟩
  | .hbm, ⟨77, _⟩ => ⟨S2x64x128, .f32⟩
  | .hbm, ⟨78, _⟩ => ⟨S2x64x128, .f32⟩
  | .hbm, ⟨79, _⟩ => ⟨S128x128, .f32⟩
  | .hbm, ⟨80, _⟩ => ⟨S16384x128, .f32⟩
  | .hbm, ⟨81, _⟩ => ⟨S_, .f32⟩
  | .hbm, ⟨82, _⟩ => ⟨S16384x128, .f32⟩
  | .hbm, ⟨83, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_cst : Ref sig .tc := ⟨.hbm, 81, rfl⟩
abbrev main_call0_v0 : Ref sig .tc := ⟨.hbm, 82, rfl⟩
abbrev main_v65 : Ref sig .tc := ⟨.hbm, 83, rfl⟩

abbrev nD : Nat := 1
abbrev τ : Topo := Topo.v7x

variable {F : FTy → Type} [FloatOps F]

class Facts₀ : Prop where
  shapeCasts_S128x128_S2x64x128 : S128x128.ShapeCasts S2x64x128
  reducesTo_S2x64x128_S2x64_d2 : S2x64x128.ReducesTo [2] S2x64
  h_S_ : 0 < S_.numel
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x128_0_1_2 : S2x64x1.BroadcastsInDim S2x64x128 (![0, 1, 2] : Fin 3 → Fin S2x64x128.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S2x64x64_0_1_2 : S1x64x64.BroadcastsInDim S2x64x64 (![0, 1, 2] : Fin 3 → Fin S2x64x64.rank)
  reducesTo_S2x64x64_S2_d1_2 : S2x64x64.ReducesTo [1, 2] S2
  bcast_S2_S2x1x1_0 : S2.BroadcastsInDim S2x1x1 (![0] : Fin 1 → Fin S2x1x1.rank)
  bcast_S2x1x1_S2x64x64_0_1_2 : S2x1x1.BroadcastsInDim S2x64x64 (![0, 1, 2] : Fin 3 → Fin S2x64x64.rank)
  bcast_S64x64_S2x64x64_1_2 : S64x64.BroadcastsInDim S2x64x64 (![1, 2] : Fin 2 → Fin S2x64x64.rank)
  bcast_S_S2x64x64 : S_.BroadcastsInDim S2x64x64 (![] : Fin 0 → Fin S2x64x64.rank)
  bcast_S2x1x1_S2x64x128_0_1_2 : S2x1x1.BroadcastsInDim S2x64x128 (![0, 1, 2] : Fin 3 → Fin S2x64x128.rank)
  shapeCasts_S2x64x128_S128x128 : S2x64x128.ShapeCasts S128x128
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S2x64x128_S2x64x128_S2x64x64_2_2_1_1_0_0_wf : DotDims.WF S2x64x128 S2x64x128 S2x64x64 [2] [2] [1] [1] [0] [0]
  dot_S2x64x64_S2x64x64_S2x64x64_2_1_1_2_0_0_wf : DotDims.WF S2x64x64 S2x64x64 S2x64x64 [2] [1] [1] [2] [0] [0]
  dot_S2x64x64_S2x64x128_S2x64x128_2_1_1_2_0_0_wf : DotDims.WF S2x64x64 S2x64x128 S2x64x128 [2] [1] [1] [2] [0] [0]
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S2x64x128_S2x64x128_S2x64x64_2_2_1_1_0_0 : DotDims S2x64x128 S2x64x128 S2x64x64 where
  lhsContracting := [2]
  rhsContracting := [2]
  lhsNonContracting := [1]
  rhsNonContracting := [1]
  lhsBatch := [0]
  rhsBatch := [0]
  wf := dot_S2x64x128_S2x64x128_S2x64x64_2_2_1_1_0_0_wf
def dot_S2x64x64_S2x64x64_S2x64x64_2_1_1_2_0_0 : DotDims S2x64x64 S2x64x64 S2x64x64 where
  lhsContracting := [2]
  rhsContracting := [1]
  lhsNonContracting := [1]
  rhsNonContracting := [2]
  lhsBatch := [0]
  rhsBatch := [0]
  wf := dot_S2x64x64_S2x64x64_S2x64x64_2_1_1_2_0_0_wf
def dot_S2x64x64_S2x64x128_S2x64x128_2_1_1_2_0_0 : DotDims S2x64x64 S2x64x128 S2x64x128 where
  lhsContracting := [2]
  rhsContracting := [1]
  lhsNonContracting := [1]
  rhsNonContracting := [2]
  lhsBatch := [0]
  rhsBatch := [0]
  wf := dot_S2x64x64_S2x64x128_S2x64x128_2_1_1_2_0_0_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.LibChunkSum.lean ====
/-
  A long sum taken in equal chunks.

  In any commutative additive monoid, for a sequence `f : ℕ → M` and a chunk length `b`:
  `partialSum f n` is the sum of the first `n` terms; the empty partial sum is zero
  (`partialSum_zero`); the first `(k+1)·b` terms are the first `k·b` terms followed by chunk `k`,
  the chunk written as a sum over `q : Fin b` of the terms `k·b + q` (`partialSum_chunk`); and all
  `n` terms are the sum over `r : Fin n` (`partialSum_all`). Only commutativity and associativity of
  the addition are used, so the law holds on the extended reals with no finiteness assumption: an
  accumulator that starts at zero and adds one chunk's sum per step ends at the whole sum.
-/
import Mathlib.Algebra.BigOperators.Fin

namespace ChunkSum

open Finset

variable {M : Type*} [AddCommMonoid M]

/-- The sum of the first `n` terms of `f`. -/
def partialSum (f : ℕ → M) (n : ℕ) : M := ∑ r ∈ range n, f r

/-- No terms sum to zero. -/
theorem partialSum_zero (f : ℕ → M) : partialSum f 0 = 0 := by
  simp [partialSum]

/-- The first `(k+1)·b` terms are the first `k·b` terms, then chunk `k`: the terms `k·b + q`, `q < b`. -/
theorem partialSum_chunk (f : ℕ → M) (b k : ℕ) :
    partialSum f ((k + 1) * b) = partialSum f (k * b) + ∑ q : Fin b, f (k * b + q.val) := by
  unfold partialSum
  rw [Nat.add_mul, Nat.one_mul, Finset.sum_range_add]
  exact congrArg _ (Finset.sum_range fun x => f (k * b + x))

/-- All `n` terms, as a sum over `Fin n`. -/
theorem partialSum_all (f : ℕ → M) (n : ℕ) : partialSum f n = ∑ r : Fin n, f r.val := by
  unfold partialSum
  exact Finset.sum_range f

end ChunkSum
-- ==== Proof.Spec.lean ====
/-
  The graph-convolution layer as one function of its three arrays, over the extended reals.

  With `g` the dense adjacency [16384, 16384], `h` the node features [16384, 128] and `w` the
  orthogonalized weight [128, 128], the layer's output at node `row` and feature `col` is

      max (∑ k < 128, (∑ r < 16384, g (row, r) · h (r, k)) · w (k, col)) 0.

  The inner sum is the aggregation of the neighbours' features. `agg … n` is its partial sum over the
  first `n` source nodes, which is how a kernel that walks the adjacency row in column chunks of 2048
  meets it: nothing before the first chunk (`agg_zero`), one chunk's products more after each chunk
  (`agg_chunk`), the whole row's inner product after the eighth (`agg_all`).  Only the commutative
  monoid structure of the addition is used, so no entry has to be finite.  The zero the maximum is
  taken against is kept as the f32 word `0x00000000`; it is the same word wherever it is met.
-/
import Idealize.ShloMosaic.Lib.ValueIdx
import proofs.«144190_j60498909331914_2_alg».proof.Proof.LibChunkSum

noncomputable section

open scoped BigOperators

namespace Cert.Gcn

open Idealize.ShloMosaic Idealize.ShloMosaic.ValueIdx

/-- The adjacency's shape. -/
abbrev SA : Shape := ⟨2, ![16384, 16384]⟩
/-- The features' (and the output's) shape. -/
abbrev SX : Shape := ⟨2, ![16384, 128]⟩
/-- The weight's shape. -/
abbrev SW : Shape := ⟨2, ![128, 128]⟩

variable (g : SA.Idx → EReal) (h : SX.Idx → EReal) (w : SW.Idx → EReal)

/-- Source node `r`'s contribution to feature `col` of node `row` (nothing past the last node). -/
def term (row : Fin 16384) (col : Fin 128) (r : ℕ) : EReal :=
  if hr : r < 16384 then g (ix2 row ⟨r, hr⟩) * h (ix2 ⟨r, hr⟩ col) else 0

/-- The aggregation over the first `n` source nodes. -/
def agg (row : Fin 16384) (col : Fin 128) (n : ℕ) : EReal :=
  ChunkSum.partialSum (term g h row col) n

/-- Before any source node: nothing. -/
theorem agg_zero (row : Fin 16384) (col : Fin 128) : agg g h row col 0 = 0 :=
  ChunkSum.partialSum_zero _

/-- One more chunk of 2048 source nodes adds that chunk's products. -/
theorem agg_chunk (row : Fin 16384) (col : Fin 128) (k : ℕ) (hk : k < 8) :
    agg g h row col ((k + 1) * 2048) = agg g h row col (k * 2048)
      + ∑ q : Fin 2048, g (ix2 row ⟨k * 2048 + q.val, by have := q.isLt; omega⟩)
          * h (ix2 ⟨k * 2048 + q.val, by have := q.isLt; omega⟩ col) := by
  unfold agg
  rw [ChunkSum.partialSum_chunk]
  refine congrArg _ (Finset.sum_congr rfl fun q _ => ?_)
  have hlt : k * 2048 + q.val < 16384 := by have := q.isLt; omega
  unfold term
  rw [dif_pos hlt]

/-- All 16384 source nodes: the row of `g` against the column of `h`. -/
theorem agg_all (row : Fin 16384) (col : Fin 128) :
    agg g h row col 16384 = ∑ r : Fin 16384, g (ix2 row r) * h (ix2 r col) := by
  unfold agg
  rw [ChunkSum.partialSum_all]
  refine Finset.sum_congr rfl fun r _ => ?_
  unfold term
  rw [dif_pos r.isLt]

/-- The layer's output at node `row`, feature `col`. -/
def out (row : Fin 16384) (col : Fin 128) : EReal :=
  max (∑ k : Fin 128, agg g h row k 16384 * w (ix2 k col)) (Ideal.ofBits .f32 0x00000000#32)

end Cert.Gcn

end
-- ==== Proof.Layer.lean ====
/-
  The layer's output as a whole array: entry `i` of the [16384, 128] result is the output at node `i 0`, feature `i 1`.
-/
import proofs.«144190_j60498909331914_2_alg».proof.Proof.Spec

noncomputable section

namespace Cert.Gcn

open Idealize.ShloMosaic Idealize.ShloMosaic.ValueIdx

/-- The layer's output array of an adjacency `g`, features `h` and an orthogonalized weight `w`. -/
def layer (g : SA.Idx → EReal) (h : SX.Idx → EReal) (w : SW.Idx → EReal) : SX.Idx → EReal :=
  fun i => out g h w ⟨(i 0).val, idx2_lt0 i⟩ ⟨(i 1).val, idx2_lt1 i⟩

theorem layer_apply (g : SA.Idx → EReal) (h : SX.Idx → EReal) (w : SW.Idx → EReal) (i : SX.Idx) :
    layer g h w i = out g h w ⟨(i 0).val, idx2_lt0 i⟩ ⟨(i 1).val, idx2_lt1 i⟩ := rfl

end Cert.Gcn

end
-- ==== Proof.RefValue.lean ====
/-
  The reference computes the layer's output.

  The reference multiplies the adjacency by the features in one product, multiplies the result by its
  orthogonalized weight in a second, and clamps at zero.  Read entry by entry over the extended reals a
  host product is the plain sum over its contracted index, so entry `(row, col)` is
  max (∑ k, (∑ r, g (row, r) · h (r, k)) · w (k, col)) 0 — the specification, with `w` the
  orthogonalized weight and the inner sum the aggregation over all 16384 source nodes.
-/
import proofs.«144190_j60498909331914_2_alg».proof.Proof.RefRead
import proofs.«144190_j60498909331914_2_alg».proof.Proof.Layer

noncomputable section

open scoped BigOperators

namespace Cert.ReferenceIdeal.RefValue

open Cert.ReferenceIdeal Cert.ReferenceIdeal.ReadP Idealize.ShloMosaic Idealize.ShloMosaic.ValueIdx

/-- The reference's result, as one function of its three arguments: the layer's output, with the reference's own
    orthogonalized weight. -/
theorem result_eq (x0 : (⟨S16384x16384, .f32⟩ : BufTy).Contents (Elt Ideal)) (x1 : (⟨S16384x128, .f32⟩ : BufTy).Contents (Elt Ideal))
    (x2 : (⟨S128x128, .f32⟩ : BufTy).Contents (Elt Ideal)) :
    val_main_v65 (F := Ideal) x0 x1 x2 = Cert.Gcn.layer x0 x1 (val_main_v63 (F := Ideal) x2) := by
  funext i
  rw [val_main_v65_apply, val_main_v64_apply, val_main_call0_v0_apply, val_main_call0_cst_apply, Cert.Gcn.layer_apply]
  unfold Cert.Gcn.out
  refine congrArg (max · (Ideal.ofBits .f32 0x00000000#32)) (Finset.sum_congr rfl fun k _ => ?_)
  rw [val_main_v0_apply, Cert.Gcn.agg_all]
  have hw : ridx_main_v64 i k = ix2 k (⟨(i 1).val, (i 1).isLt⟩ : Fin 128) :=
    funext fun a => by match a with | ⟨0, _⟩ => rfl | ⟨1, _⟩ => rfl
  rw [hw]
  refine congrArg (· * val_main_v63 (F := Ideal) x2 (ix2 k (⟨(i 1).val, (i 1).isLt⟩ : Fin 128))) (Finset.sum_congr rfl fun q _ => ?_)
  have hg : lidx_main_v0 (lidx_main_v64 i k) q = ix2 (⟨(i 0).val, (i 0).isLt⟩ : Fin 16384) q :=
    funext fun a => by match a with | ⟨0, _⟩ => rfl | ⟨1, _⟩ => rfl
  have hh : ridx_main_v0 (lidx_main_v64 i k) q = ix2 q k :=
    funext fun a => by match a with | ⟨0, _⟩ => rfl | ⟨1, _⟩ => rfl
  rw [hg, hh]

end Cert.ReferenceIdeal.RefValue

end
-- ==== Proof.Pieces.lean ====
/-
  What one grid point leaves behind, as values.

  The body keeps a [1024, 128] accumulator in scratch.  At a point it reads the 2048 rows of the feature
  array that belong to its column chunk (`featRows`), adds the product of its adjacency block with those
  rows to the accumulator, and stores the sum back; at the first chunk of a row block it first stores
  zeros and reads them back as the accumulator; at the last chunk it also multiplies the new accumulator
  by the orthogonalized weight, clamps at zero and stores that into the output block.  So, with `step` the
  accumulate-and-store payload and `finish` the output payload:

      first chunk :  accumulator ← step (zeros),        no output
      middle chunk:  accumulator ← step (accumulator),   no output
      last chunk  :  accumulator ← step (accumulator),   output ← finish (new accumulator).

  Each statement below reads the stores one case's run made — one covering store per buffer, the
  accumulator's read-back of the zero store in the first case, the output's read-back of the new
  accumulator in the last — as that value, for any float instance.
-/
import proofs.«144190_j60498909331914_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The 2048 rows of the feature array a point reads: rows `k0_off1 i 0 + q`, all 128 columns. -/
abbrev featRows (i : grid0.Coords) (x1 : Vec F S16384x128 .f32) : Vec F S2048x128 .f32 :=
  View.ld (Val := Elt F) x1 (Rect.unit (s := S16384x128) (k0_off1 i) S2048x128.size (k0_off1_inb i))

/-- The accumulator after a point: the accumulator before it plus the adjacency block times the feature rows. -/
abbrev step (i : grid0.Coords) (x0 : Vec F S1024x2048 .f32) (x1 : Vec F S16384x128 .f32) (acc : Vec F S1024x128 .f32) :
    Vec F S1024x128 .f32 :=
  k0_pay2 (featRows i x1) acc x0

/-- The output block: the accumulator times the weight block, clamped at zero. -/
abbrev finish (acc : Vec F S1024x128 .f32) (x2 : Vec F S128x128 .f32) : Vec F S1024x128 .f32 :=
  k0_pay3 acc x2

/-- A middle chunk leaves `step` of the accumulator it found. -/
theorem scratch_B (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x2048 .f32) (x1 : Vec F S16384x128 .f32) (x2 : Vec F S128x128 .f32) (xs0 : Vec F S1024x128 .f32) :
    sout0_B_0 c i arg2 harg2 arg3 harg3 arg4 harg4 arg5 harg5 arg6 harg6 hc0 hc1 x0 x1 x2 xs0 = step i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg6.read_unread,
    View.ld_unit_zero (S := S1024x128) hz, View.ld_unit_zero (S := S1024x2048) hz]

/-- The first chunk leaves `step` of the zeros it stored. -/
theorem scratch_A (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x2048 .f32) (x1 : Vec F S16384x128 .f32) (x2 : Vec F S128x128 .f32) :
    sout0_A_0 c i arg2 harg2 arg3 harg3 arg4 harg4 arg5 harg5 arg6 harg6 hc0 hc1 x0 x1 x2 = step i x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) hz, View.readCov_unit_zero (S := S1024x128) _ hz]
  simp only [View.readAt_eq_ld, harg2.read_unread, harg3.read_unread,
    View.ld_unit_zero (S := S1024x2048) hz]
  rfl

/-- The last chunk leaves `step` of the accumulator it found, -/
theorem scratch_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S16384x128 .f32) (x2 : Vec F S128x128 .f32) (xs0 : Vec F S1024x128 .f32) :
    sout0_C_0 c i arg2 harg2 arg3 harg3 arg4 harg4 arg5 harg5 arg6 harg6 hc0 hc1 x0 x1 x2 xs0 = step i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S1024x128) hz, View.ld_unit_zero (S := S1024x2048) hz]
  rfl

/-- and, in the output block, `finish` of that new accumulator and the weight block. -/
theorem output_C (c : Dev nD) (i : grid0.Coords) (arg2 : Memref sig .tc .vmem S1024x2048 .f32) (harg2 : arg2.IsWhole) (arg3 : Memref sig .tc .vmem S16384x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x2048 .f32) (x1 : Vec F S16384x128 .f32) (x2 : Vec F S128x128 .f32) (xs0 : Vec F S1024x128 .f32) :
    out0_C_3 c i arg2 harg2 arg3 harg3 arg4 harg4 arg5 harg5 arg6 harg6 hc0 hc1 x0 x1 x2 xs0 = finish (step i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x128) _ hz]
  simp only [View.readAt_eq_ld, harg2.read_unread, harg3.read_unread, harg4.read_unread, harg6.read_unread,
    View.ld_unit_zero (S := S1024x128) hz, View.ld_unit_zero (S := S1024x2048) hz, View.ld_unit_zero (S := S128x128) hz]
  rfl

end Cert.KernelIdeal.Pieces

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.Payloads.lean ====
/-
  The body's arithmetic at one entry, over the extended reals.

  At entry `(p, j)` of the [1024, 128] accumulator block:
    the zero block is 0;
    the feature rows a point reads are rows `offset + q` of the feature array;
    `step` is the old entry plus ∑ q < 2048 of adjacency-block `(p, q)` · feature-rows `(q, j)` — a matrix-unit
      product into a zero accumulator is exactly that sum, whatever its precision mode;
    `finish` is max (∑ k < 128 of accumulator `(p, k)` · weight `(k, j)`) and the f32 zero word.
-/
import proofs.«144190_j60498909331914_2_alg».proof.Proof.Pieces
import proofs.«144190_j60498909331914_2_alg».proof.Proof.LibDense
import Idealize.ShloMosaic.Lib.ValueIdx
import Idealize.ShloMosaic.PureOps.Ideal.Laws

noncomputable section

open scoped BigOperators

namespace Cert.KernelIdeal.Payloads

open Cert.KernelIdeal Cert.KernelIdeal.Gen Cert.KernelIdeal.Pieces Idealize.ShloMosaic Idealize.ShloMosaic.ValueIdx

/-! ### The two products' operand indices: output `(p, c)`, contraction coordinate `q` ↦ `(p, q)` and `(q, c)` -/

theorem gh_l0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem gh_l1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem gh_r0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem gh_r1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem aw_l0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem aw_l1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem aw_r0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem aw_r1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The block of zeros the first chunk stores is zero everywhere. -/
theorem zeros_apply (y : S1024x128.Idx) : k0_pay1 (F := Ideal) y = 0 := by
  unfold k0_pay1
  rw [shapeCast_self]
  exact Ideal.ofBits_zero_f32

/-- The feature rows a point reads, as an f32 vector over the extended reals. -/
abbrev rows (i : grid0.Coords) (x1 : FVec Ideal S16384x128 .f32) : FVec Ideal S2048x128 .f32 := featRows (F := Ideal) i x1

/-- The feature rows a point reads, at `(q, j)`: the feature array at row `offset + q`, column `offset + j`. -/
theorem featRows_apply (i : grid0.Coords) (x1 : FVec Ideal S16384x128 .f32) (q : Fin 2048) (j : Fin 128)
    (r : Fin 16384) (col : Fin 128) (hr : r.val = k0_off1 i 0 + q.val) (hc : col.val = k0_off1 i 1 + j.val) :
    rows i x1 (ix2 q j) = x1 (ix2 r col) := by
  show x1 _ = x1 _
  refine congrArg x1 (funext fun a => Fin.ext ?_)
  match a with
  | ⟨0, _⟩ => show k0_off1 i 0 + 1 * q.val = r.val; omega
  | ⟨1, _⟩ => show k0_off1 i 1 + 1 * j.val = col.val; omega

/-- `step` as the old accumulator plus one product. -/
theorem step_eq (i : grid0.Coords) (x0 : FVec Ideal S1024x2048 .f32) (x1 : FVec Ideal S16384x128 .f32) (acc : FVec Ideal S1024x128 .f32) :
    step (F := Ideal) i x0 x1 acc = addf acc (matmul dot_S1024x2048_S2048x128_S1024x128_1_0_0_1_n_n (some .fp32) x0 (rows i x1) (constant (F := Ideal) S1024x128 .f32 0x00000000#32)) := by
  show k0_pay2 (F := Ideal) (rows i x1) acc x0 = _
  unfold k0_pay2
  exact shapeCast_self _ _

/-- `step` at `(p, j)`: the old entry plus the sum over the chunk's 2048 columns. -/
theorem step_apply (i : grid0.Coords) (x0 : FVec Ideal S1024x2048 .f32) (x1 : FVec Ideal S16384x128 .f32) (acc : FVec Ideal S1024x128 .f32)
    (p : Fin 1024) (j : Fin 128) :
    step (F := Ideal) i x0 x1 acc (ix2 p j) = acc (ix2 p j) + ∑ q : Fin 2048, x0 (ix2 p q) * rows i x1 (ix2 q j) := by
  rw [step_eq]
  show acc (ix2 p j) + FloatOps.matmul dot_S1024x2048_S2048x128_S1024x128_1_0_0_1_n_n (some .fp32) x0 (rows i x1) (constant (F := Ideal) S1024x128 .f32 0x00000000#32) (ix2 p j) = _
  exact congrArg (acc (ix2 p j) + ·)
    (Cert.LibDense.matmul_zero_apply dot_S1024x2048_S2048x128_S1024x128_1_0_0_1_n_n rfl rfl gh_l0 gh_l1 gh_r0 gh_r1 (some .fp32) x0 (rows i x1) p j)

/-- `finish` as a clamped product. -/
theorem finish_eq (acc : FVec Ideal S1024x128 .f32) (x2 : FVec Ideal S128x128 .f32) :
    finish (F := Ideal) acc x2 = maximumf (matmul dot_S1024x128_S128x128_S1024x128_1_0_0_1_n_n (some .fp32) acc x2 (constant (F := Ideal) S1024x128 .f32 0x00000000#32))
      (broadcast S1024x128 (Scalar.ofBits (F := Ideal) .f32 0x00000000#32)) := by
  show k0_pay3 (F := Ideal) acc x2 = _
  unfold k0_pay3
  rw [shapeCast_self]

/-- `finish` at `(p, j)`: the accumulator's row against the weight's column, clamped at the zero word. -/
theorem finish_apply (acc : FVec Ideal S1024x128 .f32) (x2 : FVec Ideal S128x128 .f32) (p : Fin 1024) (j : Fin 128) :
    finish (F := Ideal) acc x2 (ix2 p j) = max (∑ k : Fin 128, acc (ix2 p k) * x2 (ix2 k j)) (Ideal.ofBits .f32 0x00000000#32) := by
  rw [finish_eq]
  show max (FloatOps.matmul dot_S1024x128_S128x128_S1024x128_1_0_0_1_n_n (some .fp32) acc x2 (constant (F := Ideal) S1024x128 .f32 0x00000000#32) (ix2 p j)) (Ideal.ofBits .f32 0x00000000#32) = _
  exact congrArg (max · (Ideal.ofBits .f32 0x00000000#32))
    (Cert.LibDense.matmul_zero_apply dot_S1024x128_S128x128_S1024x128_1_0_0_1_n_n rfl rfl aw_l0 aw_l1 aw_r0 aw_r1 (some .fp32) acc x2 p j)

end Cert.KernelIdeal.Payloads

end
-- ==== Proof.Windows.lean ====
/-
  Where each grid point looks.

  The grid is 16 × 8: point `t = 8·i + k` works on row block `i` (1024 rows) and column chunk `k`
  (2048 columns) of the adjacency.  Its adjacency block is therefore the entries
  `(1024·i + p, 2048·k + q)`; the feature array and the orthogonalized weight are staged whole, the same
  block at every point; inside the body the features are read in the slice of rows `2048·k + q`; the
  output's block is row block `i`, and it is written back only at the last chunk, `k = 7`.
  These are facts about the printed index maps, decided once over the 128 points, and the reads of the
  three input blocks at explicit coordinates that follow from them.
-/
import proofs.«144190_j60498909331914_2_alg».proof.Proof.Gen.KernelIdeal.Frame
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the four windows at point `t`: the adjacency's is `(t / 8, t % 8)`, the features' and
    the weight's `(0, 0)`, the output's `(t / 8, 0)`. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The rows of the feature array the body reads at point `t` start at `2048·(t % 8)`, at column 0. -/
theorem off_facts : ∀ t : Fin cfg0.N,
    k0_off1 (grid0.coords t) (0 : Fin 2) = 2048 * (t.val % 8) ∧ k0_off1 (grid0.coords t) (1 : Fin 2) = 0 :=
  (by decide +kernel : ∀ t : Fin grid0.N, _)

/-- The output's block is written back exactly at the last column chunk. -/
theorem flush_iff : ∀ t : Fin cfg0.N, (cfg0.win 3).flush t = true ↔ t.val % 8 = 7 :=
  (by decide +kernel : ∀ t : Fin grid0.N, _)

end Cert.KernelIdeal.Windows

end
-- ==== Proof.BlockReads.lean ====
/-
  What the three input windows hold at a point, entry by entry.

  At point `t = 8·i + k` the adjacency window's block, at `(p, q)`, is the adjacency as the region finds it
  at `(1024·i + p, 2048·k + q)`; the feature window's block is the whole feature array and the weight
  window's block the whole orthogonalized weight, at every point.  A block's coordinate in its array is
  always block index × block size + the coordinate inside the block; the block indices are the decided
  facts of the window module.
-/
import proofs.«144190_j60498909331914_2_alg».proof.Proof.Windows

noncomputable section

namespace Cert.KernelIdeal.BlockReads

open Cert.KernelIdeal Cert.KernelIdeal.Gen Cert.KernelIdeal.Windows
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The adjacency block at point `t`, entry `(p, q)`: the adjacency at row `1024·(t / 8) + p`, column `2048·(t % 8) + q`. -/
theorem adj_read (c : Dev nD) (t : Fin cfg0.N) (p : Fin 1024) (q : Fin 2048) (r s : Fin 16384)
    (hr : r.val = 1024 * (t.val / 8) + p.val) (hs : s.val = 2048 * (t.val % 8) + q.val) :
    (iblk m c 0 t : Vec F S1024x2048 .f32) (ix2 p q) = V m c main_arg0 (ix2 r s) := by
  obtain ⟨h00, h01, -⟩ := idx_facts t
  unfold iblk
  rw [View.read_apply]
  show V m c main_arg0 _ = V m c main_arg0 _
  refine congrArg (V m c main_arg0) (funext fun a => Fin.ext ?_)
  match a with
  | ⟨0, _⟩ => show win0_0.index t 0 * 1024 + 1 * p.val = r.val; rw [h00]; omega
  | ⟨1, _⟩ => show win0_0.index t 1 * 2048 + 1 * q.val = s.val; rw [h01]; omega

/-- The feature block at any point is the whole feature array. -/
theorem feat_read (c : Dev nD) (t : Fin cfg0.N) (r : Fin 16384) (j : Fin 128) :
    (iblk m c 1 t : Vec F S16384x128 .f32) (ix2 r j) = V m c main_arg1 (ix2 r j) := by
  obtain ⟨-, -, h10, h11, -⟩ := idx_facts t
  unfold iblk
  rw [View.read_apply]
  show V m c main_arg1 _ = V m c main_arg1 _
  refine congrArg (V m c main_arg1) (funext fun a => Fin.ext ?_)
  match a with
  | ⟨0, _⟩ => show win0_1.index t 0 * 16384 + 1 * r.val = r.val; rw [h10]; omega
  | ⟨1, _⟩ => show win0_1.index t 1 * 128 + 1 * j.val = j.val; rw [h11]; omega

/-- The weight block at any point is the whole orthogonalized weight the host prepared. -/
theorem weight_read (c : Dev nD) (t : Fin cfg0.N) (k : Fin 128) (j : Fin 128) :
    (iblk m c 2 t : Vec F S128x128 .f32) (ix2 k j) = V m c main_v62 (ix2 k j) := by
  obtain ⟨-, -, -, -, h20, h21, -⟩ := idx_facts t
  unfold iblk
  rw [View.read_apply]
  show V m c main_v62 _ = V m c main_v62 _
  refine congrArg (V m c main_v62) (funext fun a => Fin.ext ?_)
  match a with
  | ⟨0, _⟩ => show win0_2.index t 0 * 128 + 1 * k.val = k.val; rw [h20]; omega
  | ⟨1, _⟩ => show win0_2.index t 1 * 128 + 1 * j.val = j.val; rw [h21]; omega

end Cert.KernelIdeal.BlockReads

end
-- ==== Proof.Accumulate.lean ====
/-
  The accumulator is the aggregation's partial sum.

  Write a grid point as `t = 8·i + k`.  After point `t` the scratch accumulator holds, at `(p, j)`, the
  aggregation of feature `j` into node `1024·i + p` over the first `(k + 1)·2048` source nodes:

      k = 0 :  the body stores zeros, reads them back and adds chunk 0's products:  0 + chunk 0;
      k > 0 :  it adds chunk `k`'s products to what point `t − 1` left, which is the partial sum over the first
               `k·2048` source nodes of the same row block (`t − 1` lies in the same row block).

  One chunk's products, written in the arrays' own coordinates, are the adjacency at
  `(1024·i + p, 2048·k + q)` times the features at `(2048·k + q, j)`, `q < 2048`: the adjacency block and the
  rows of the feature array the point reads.  The induction is over the point, never an enumeration.
  At the last chunk the output's staging buffer holds `finish` of the accumulator that same point leaves.
-/
import proofs.«144190_j60498909331914_2_alg».proof.Proof.Payloads
import proofs.«144190_j60498909331914_2_alg».proof.Proof.BlockReads
import proofs.«144190_j60498909331914_2_alg».proof.Proof.Spec

noncomputable section

open scoped BigOperators

namespace Cert.KernelIdeal.Accumulate

open Cert.KernelIdeal Cert.KernelIdeal.Gen Cert.KernelIdeal.Pieces Cert.KernelIdeal.Payloads
open Cert.KernelIdeal.BlockReads Cert.KernelIdeal.Windows
open Idealize.ShloMosaic Idealize.ShloMosaic.TcCoe Idealize.SL.Sem Idealize.ShloMosaic.ValueIdx

variable (m : (ℓ : Loc nD τ sig) → Buf (Elt Ideal) ℓ)

/-- The adjacency, the features and the orthogonalized weight as the region finds them, and the three input blocks at a
    point, as f32 arrays over the extended reals. -/
abbrev adj (c : Dev nD) : FVec Ideal S16384x16384 .f32 := V m c main_arg0
abbrev feat (c : Dev nD) : FVec Ideal S16384x128 .f32 := V m c main_arg1
abbrev wgt (c : Dev nD) : FVec Ideal S128x128 .f32 := V m c main_v62
abbrev blk0 (c : Dev nD) (t : Fin cfg0.N) : FVec Ideal S1024x2048 .f32 := iblk m c 0 t
abbrev blk1 (c : Dev nD) (t : Fin cfg0.N) : FVec Ideal S16384x128 .f32 := iblk m c 1 t
abbrev blk2 (c : Dev nD) (t : Fin cfg0.N) : FVec Ideal S128x128 .f32 := iblk m c 2 t

/-- One chunk's products at point `t`, in the arrays' coordinates. -/
theorem chunk_sum (c : Dev nD) (t : Fin cfg0.N) (p : Fin 1024) (j : Fin 128) (row : Fin 16384)
    (hrow : row.val = 1024 * (t.val / 8) + p.val) :
    (∑ q : Fin 2048, blk0 m c t (ix2 p q) * rows (grid0.coords t) (blk1 m c t) (ix2 q j))
      = ∑ q : Fin 2048, adj m c (ix2 row ⟨t.val % 8 * 2048 + q.val, by have := q.isLt; omega⟩)
          * feat m c (ix2 ⟨t.val % 8 * 2048 + q.val, by have := q.isLt; omega⟩ j) := by
  obtain ⟨ho0, ho1⟩ := off_facts t
  refine Finset.sum_congr rfl fun q _ => ?_
  have hlt : t.val % 8 * 2048 + q.val < 16384 := by have := q.isLt; omega
  have e1 : blk0 m c t (ix2 p q) = adj m c (ix2 row ⟨t.val % 8 * 2048 + q.val, hlt⟩) :=
    adj_read m c t p q row ⟨t.val % 8 * 2048 + q.val, hlt⟩ hrow (by show t.val % 8 * 2048 + q.val = 2048 * (t.val % 8) + q.val; omega)
  have e2 : rows (grid0.coords t) (blk1 m c t) (ix2 q j) = feat m c (ix2 ⟨t.val % 8 * 2048 + q.val, hlt⟩ j) :=
    (featRows_apply (grid0.coords t) (blk1 m c t) q j ⟨t.val % 8 * 2048 + q.val, hlt⟩ j
      (by show t.val % 8 * 2048 + q.val = _; rw [ho0]; omega) (by rw [ho1]; omega)).trans
    (feat_read m c t ⟨t.val % 8 * 2048 + q.val, hlt⟩ j)
  exact congrArg₂ (· * ·) e1 e2

/-- The first chunk of a row block: the accumulator is `step` of the zeros. -/
theorem scratch_first (c : Dev nD) (t : Fin cfg0.N) (h0 : t.val % 8 = 0) (h1 : ¬t.val % 8 = 7) :
    (outsAt0 m c t.val t.isLt).2 = step (F := Ideal) (grid0.coords t) (blk0 m c t) (blk1 m c t) (k0_pay1 (F := Ideal)) := by
  have e : (outsAt0 m c t.val t.isLt).2 = sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) := by
    simp only [outsAt0_A m c t h0 h1]
  exact e.trans (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- A middle chunk: the accumulator is `step` of what the point before left. -/
theorem scratch_middle (c : Dev nD) (t : Fin cfg0.N) (h0 : ¬t.val % 8 = 0) (h1 : ¬t.val % 8 = 7) :
    (outsAt0 m c t.val t.isLt).2 = step (F := Ideal) (grid0.coords t) (blk0 m c t) (blk1 m c t) (outsAt0 m c (t.val - 1) (Nat.lt_of_le_of_lt (Nat.sub_le _ _) t.isLt)).2 := by
  have e : (outsAt0 m c t.val t.isLt).2 = sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2 := by
    simp only [outsAt0_B m c t h0 h1]
  exact e.trans (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

/-- The last chunk: the accumulator is `step` of what the point before left, -/
theorem scratch_last (c : Dev nD) (t : Fin cfg0.N) (h0 : ¬t.val % 8 = 0) (h1 : t.val % 8 = 7) :
    (outsAt0 m c t.val t.isLt).2 = step (F := Ideal) (grid0.coords t) (blk0 m c t) (blk1 m c t) (outsAt0 m c (t.val - 1) (Nat.lt_of_le_of_lt (Nat.sub_le _ _) t.isLt)).2 := by
  have e : (outsAt0 m c t.val t.isLt).2 = sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 := by
    simp only [outsAt0_C m c t h0 h1]
  exact e.trans (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

/-- and the output's staging buffer is `finish` of that new accumulator and the weight block. -/
theorem output_last (c : Dev nD) (t : Fin cfg0.N) (h0 : ¬t.val % 8 = 0) (h1 : t.val % 8 = 7) :
    (outsAt0 m c t.val t.isLt).1 = finish (F := Ideal) (step (F := Ideal) (grid0.coords t) (blk0 m c t) (blk1 m c t) (outsAt0 m c (t.val - 1) (Nat.lt_of_le_of_lt (Nat.sub_le _ _) t.isLt)).2) (blk2 m c t) := by
  have e : (outsAt0 m c t.val t.isLt).1 = out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 := by
    simp only [outsAt0_C m c t h0 h1]
  exact e.trans (output_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

/-- What the carried accumulator holds after point `t`: the aggregation over the first `(t % 8 + 1)·2048` source nodes,
    for the rows of row block `t / 8` — by induction on the point (`n` is the point's number). -/
theorem scratch_eq_aux (c : Dev nD) : ∀ (n : ℕ) (t : Fin cfg0.N), t.val = n → ∀ (p : Fin 1024) (j : Fin 128) (row : Fin 16384),
    row.val = 1024 * (t.val / 8) + p.val →
    (outsAt0 m c t.val t.isLt).2 (ix2 p j)
      = Cert.Gcn.agg (adj m c) (feat m c) row j ((t.val % 8 + 1) * 2048) := by
  intro n
  induction n using Nat.strong_induction_on with
  | _ n ih =>
    intro t htn p j row hrow
    have hN : cfg0.N = 128 := N_0
    have ht := t.isLt
    have hk : t.val % 8 < 8 := Nat.mod_lt _ (by decide)
    rw [Cert.Gcn.agg_chunk (adj m c) (feat m c) row j (t.val % 8) hk]
    by_cases h0 : t.val % 8 = 0
    · -- the first chunk of a row block
      have h1 : ¬t.val % 8 = 7 := by omega
      have hz : Cert.Gcn.agg (adj m c) (feat m c) row j (t.val % 8 * 2048) = 0 := by
        rw [h0, Nat.zero_mul]; exact Cert.Gcn.agg_zero _ _ row j
      rw [hz]
      refine (congrFun (scratch_first m c t h0 h1) (ix2 p j)).trans ?_
      refine (step_apply (grid0.coords t) (blk0 m c t) (blk1 m c t) (k0_pay1 (F := Ideal)) p j).trans ?_
      rw [zeros_apply]
      exact congrArg (0 + ·) (chunk_sum m c t p j row hrow)
    · -- a later chunk: over what the point before left
      have hn' : t.val - 1 < cfg0.N := Nat.lt_of_le_of_lt (Nat.sub_le _ _) t.isLt
      have hrow' : row.val = 1024 * ((t.val - 1) / 8) + p.val := by omega
      have ihv : (outsAt0 m c (t.val - 1) hn').2 (ix2 p j)
          = Cert.Gcn.agg (adj m c) (feat m c) row j (((t.val - 1) % 8 + 1) * 2048) :=
        ih (t.val - 1) (by omega) ⟨t.val - 1, hn'⟩ rfl p j row hrow'
      have hkk : (t.val - 1) % 8 + 1 = t.val % 8 := by omega
      rw [hkk] at ihv
      have e : (outsAt0 m c t.val t.isLt).2 = step (F := Ideal) (grid0.coords t) (blk0 m c t) (blk1 m c t) (outsAt0 m c (t.val - 1) hn').2 := by
        by_cases h1 : t.val % 8 = 7
        · exact scratch_last m c t h0 h1
        · exact scratch_middle m c t h0 h1
      refine (congrFun e (ix2 p j)).trans ?_
      refine (step_apply (grid0.coords t) (blk0 m c t) (blk1 m c t) (outsAt0 m c (t.val - 1) hn').2 p j).trans ?_
      rw [ihv]
      exact congrArg (Cert.Gcn.agg (adj m c) (feat m c) row j (t.val % 8 * 2048) + ·) (chunk_sum m c t p j row hrow)

/-- The accumulator after point `t`. -/
theorem scratch_eq (c : Dev nD) (t : Fin cfg0.N) (p : Fin 1024) (j : Fin 128) (row : Fin 16384)
    (hrow : row.val = 1024 * (t.val / 8) + p.val) :
    (outsAt0 m c t.val t.isLt).2 (ix2 p j)
      = Cert.Gcn.agg (adj m c) (feat m c) row j ((t.val % 8 + 1) * 2048) :=
  scratch_eq_aux m c t.val t rfl p j row hrow

/-- At the last chunk of a row block the output's staging buffer holds `finish` of the accumulator that point leaves
    and the weight block. -/
theorem output_eq (c : Dev nD) (t : Fin cfg0.N) (h0 : ¬t.val % 8 = 0) (h1 : t.val % 8 = 7) :
    (outsAt0 m c t.val t.isLt).1 = finish (F := Ideal) (outsAt0 m c t.val t.isLt).2 (blk2 m c t) := by
  rw [output_last m c t h0 h1, scratch_last m c t h0 h1]

end Cert.KernelIdeal.Accumulate

end
-- ==== Proof.HostChain.lean ====
/-
  The orthogonalized weight is one function of the weight in both programs.

  Before it launches the kernel, the kernel's program turns the [128, 128] weight into the matrix the
  kernel multiplies by: two groups of 64 rows, each centred, their Gram matrix regularized and scaled by
  its Frobenius norm, four Newton-Schulz steps towards its inverse square root, applied back to the
  centred rows.  The reference performs the same 76 operations on the same words, in the same order,
  after its own first product.  So what the kernel's window over that matrix finds is the reference's
  value of the same stage, as a function of the weight alone; the chain is never opened, only carried.
-/
import proofs.«144190_j60498909331914_2_alg».proof.Proof.Gen.KernelIdeal.Frame
import proofs.«144190_j60498909331914_2_alg».proof.Proof.RefRead
import Idealize.ShloMosaic.Lib.StableHlo.Run

noncomputable section

namespace Cert.KernelIdeal.HostChain

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 32400000 in
/-- When the region is entered, the buffer the kernel's third window stages holds the reference's orthogonalized
    weight of the launch contents of the weight argument. -/
theorem weight_eq (c : Dev nD) :
    V m c main_v62 = Cert.ReferenceIdeal.ReadP.val_main_v63 (F := F) (m ((c : Thread nD τ).loc main_arg2)) := by
  dsimp only [V, hostOps0]
  after_results_simp <;> rfl

end Cert.KernelIdeal.HostChain

end
-- ==== Proof.LayerValue.lean ====
/-
  The kernel's result array is the layer's output.

  The output window's block is row block `i`, written back only at the last chunk `k = 7`, that is at the
  points `t = 8·i + 7`.  There the accumulator is the aggregation over all `8 · 2048 = 16384` source nodes,
  and the body stores max (accumulator · weight) 0: entry `(p, j)` of the block is the layer's output at
  node `1024·i + p`, feature `j`.  Every node lies in exactly one row block, so the sixteen written-back
  blocks cover the array, and the array ends at the layer's output of the arrays the region finds — which
  are the launch contents of the adjacency and the features, and the reference's orthogonalized weight of
  the launch contents of the weight.
-/
import proofs.«144190_j60498909331914_2_alg».proof.Proof.Accumulate
import proofs.«144190_j60498909331914_2_alg».proof.Proof.Layer
import proofs.«144190_j60498909331914_2_alg».proof.Proof.HostChain
import proofs.«144190_j60498909331914_2_alg».proof.Proof.Gen.KernelIdeal.Value

noncomputable section

open scoped BigOperators

namespace Cert.KernelIdeal.LayerValue

open Cert.KernelIdeal Cert.KernelIdeal.Gen Cert.KernelIdeal.Pieces Cert.KernelIdeal.Payloads
open Cert.KernelIdeal.BlockReads Cert.KernelIdeal.Windows Cert.KernelIdeal.Accumulate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's output of the arrays as the region finds them. -/
def result (c : Dev nD) : S16384x128.Idx → EReal := Cert.Gcn.layer (adj m c) (feat m c) (wgt m c)

/-- One entry of the block a last-chunk point leaves: the layer's output at the entry's place in the array. -/
theorem entry_eq (c : Dev nD) (t : Fin cfg0.N) (h0 : ¬t.val % 8 = 0) (h1 : t.val % 8 = 7) (y : S1024x128.Idx) :
    (outsAt0 m c t.val t.isLt).1 y = result m c (((cfg0.win 3).blk t).view.emb y) := by
  obtain ⟨p, j, rfl⟩ : ∃ (p : Fin 1024) (j : Fin 128), y = ix2 p j := ⟨y 0, y 1, eq_ix2 y⟩
  obtain ⟨-, -, -, -, -, -, h30, h31⟩ := idx_facts t
  have hr : ((((cfg0.win 3).blk t).view.emb (ix2 p j)) 0).val = 1024 * (t.val / 8) + p.val := by
    show win0_3.index t 0 * 1024 + 1 * p.val = _; rw [h30]; omega
  have hc : ((((cfg0.win 3).blk t).view.emb (ix2 p j)) 1).val = j.val := by
    show win0_3.index t 1 * 128 + 1 * j.val = _; rw [h31]; omega
  refine (congrFun (output_eq m c t h0 h1) (ix2 p j)).trans ?_
  refine (finish_apply (outsAt0 m c t.val t.isLt).2 (blk2 m c t) p j).trans ?_
  unfold result
  rw [Cert.Gcn.layer_apply]
  unfold Cert.Gcn.out
  refine congrArg (max · (Ideal.ofBits .f32 0x00000000#32)) (Finset.sum_congr rfl fun k _ => ?_)
  have ea := scratch_eq m c t p k ⟨_, ((((cfg0.win 3).blk t).view.emb (ix2 p j)) 0).isLt⟩ hr
  have e16 : (t.val % 8 + 1) * 2048 = 16384 := by omega
  rw [e16] at ea
  have hj : j = ⟨((((cfg0.win 3).blk t).view.emb (ix2 p j)) 1).val, ((((cfg0.win 3).blk t).view.emb (ix2 p j)) 1).isLt⟩ :=
    Fin.ext hc.symm
  have ew : blk2 m c t (ix2 k j) = wgt m c (ix2 k ⟨((((cfg0.win 3).blk t).view.emb (ix2 p j)) 1).val, ((((cfg0.win 3).blk t).view.emb (ix2 p j)) 1).isLt⟩) :=
    (weight_read m c t k j).trans (congrArg (fun z => V m c main_v62 (ix2 k z)) hj)
  exact congrArg₂ (· * ·) ea ew

/-- What a write-back writes is its block of the layer's output. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush_iff t).mp hf
  have h0 : ¬t.val % 8 = 0 := by omega
  rw [Cert.KernelIdeal.Value.flushed3 m c t]
  funext y
  exact entry_eq m c t h0 h1 y

/-- An index is in point `t`'s output block iff each coordinate is in the block's range on its axis. -/
theorem mem_blk (t : Fin cfg0.N) (i : S16384x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v63).slice (win0_3.rect t)).set ↔ _
  rw [View.set_slice_whole, Rect.mem_set_unit]
  exact Iff.rfl

/-- Node `r` is written back by the last chunk of its row block, point `8·(r / 1024) + 7`. -/
theorem cover (i : S16384x128.Idx) :
    ∃ t : Fin cfg0.N, (cfg0.win 3).flush t = true ∧ i ∈ ((cfg0.win 3).blk t).view.set := by
  have hN : cfg0.N = 128 := N_0
  have hi0 : (i 0).val < 16384 := (i 0).isLt
  have hi1 : (i 1).val < 128 := (i 1).isLt
  obtain ⟨t, htv⟩ : ∃ t : Fin cfg0.N, t.val = 8 * ((i 0).val / 1024) + 7 := ⟨⟨8 * ((i 0).val / 1024) + 7, by omega⟩, rfl⟩
  obtain ⟨-, -, -, -, -, -, h30, h31⟩ := idx_facts t
  refine ⟨t, (flush_iff t).mpr (by omega), ?_⟩
  rw [mem_blk]
  intro a
  match a with
  | ⟨0, _⟩ =>
    show win0_3.index t 0 * 1024 ≤ (i 0).val ∧ (i 0).val < win0_3.index t 0 * 1024 + 1024
    rw [h30]; omega
  | ⟨1, _⟩ =>
    show win0_3.index t 1 * 128 ≤ (i 1).val ∧ (i 1).val < win0_3.index t 1 * 128 + 128
    rw [h31]; omega

/-- The result array after the run. -/
theorem final (c : Dev nD) : (dats m 0 c).arrAt 3 cfg0.N = result m c :=
  (dats m 0 c).arrAt_eq_of_cover 3 (result m c) (flushed_eq m c) (fun i => cover i)

/-- The run: the result array at the layer's output, the arguments unchanged. -/
theorem run : θ_run defs (onTc (τ := τ) (main (F := Ideal))) ⟨m, fun _ => 0, ρ⟩ fun r => ∀ c : Dev nD,
      r.2.mem ((c : Thread nD τ).loc main_v63) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

/-- The same result, in the launch contents of the three arguments: the host prefix leaves the adjacency and the
    features alone and turns the weight into the reference's orthogonalized weight. -/
theorem result_eq (c : Dev nD) :
    result m c = Cert.Gcn.layer (m ((c : Thread nD τ).loc main_arg0)) (m ((c : Thread nD τ).loc main_arg1))
      (Cert.ReferenceIdeal.ReadP.val_main_v63 (F := Ideal) (m ((c : Thread nD τ).loc main_arg2))) := by
  have ea : adj m c = m ((c : Thread nD τ).loc main_arg0) := V_main_arg0 m c
  have ef : feat m c = m ((c : Thread nD τ).loc main_arg1) := V_main_arg1 m c
  have ew : wgt m c = Cert.ReferenceIdeal.ReadP.val_main_v63 (F := Ideal) (m ((c : Thread nD τ).loc main_arg2)) :=
    Cert.KernelIdeal.HostChain.weight_eq m c
  show Cert.Gcn.layer (adj m c) (feat m c) (wgt m c) = _
  rw [ea, ef, ew]

end Cert.KernelIdeal.LayerValue

end
-- ==== Proof.lean ====
/-
  The certificate of the fused graph-convolution kernel against its reference.

  Both programs compute relu ((g · h) · w), where w is the orthogonalized weight, the same 76 host operations
  on the weight in both.  The kernel walks each block of 1024 adjacency rows in eight column chunks of 2048,
  adding each chunk's product with the matching feature rows to an accumulator that starts at zero, and at
  the last chunk multiplies the accumulator by w and clamps at zero.  Over the extended reals the eight chunk
  sums are the one sum over all 16384 source nodes re-bracketed, which needs only that the addition is
  commutative and associative; no entry has to be finite, and the precondition is never opened.

  The three frames are the generated frame runs (the reference's: its run with the result dropped); the
  idealization rewrote nothing; the two idealized programs end at the same array.
-/
import proofs.«144190_j60498909331914_2_alg».proof.Defs
import proofs.«144190_j60498909331914_2_alg».proof.Proof.Gen.Kernel
import proofs.«144190_j60498909331914_2_alg».proof.Proof.Gen.Kernel.Skeleton
import proofs.«144190_j60498909331914_2_alg».proof.Proof.Gen.Kernel.Launch
import proofs.«144190_j60498909331914_2_alg».proof.Proof.Gen.Kernel.Points
import proofs.«144190_j60498909331914_2_alg».proof.Proof.Gen.Kernel.Frame
import proofs.«144190_j60498909331914_2_alg».proof.Proof.Gen.KernelIdeal
import proofs.«144190_j60498909331914_2_alg».proof.Proof.Gen.KernelIdeal.Skeleton
import proofs.«144190_j60498909331914_2_alg».proof.Proof.Gen.KernelIdeal.Launch
import proofs.«144190_j60498909331914_2_alg».proof.Proof.Gen.KernelIdeal.Points
import proofs.«144190_j60498909331914_2_alg».proof.Proof.Gen.KernelIdeal.Frame
import proofs.«144190_j60498909331914_2_alg».proof.Proof.Gen.ReferenceIdeal
import proofs.«144190_j60498909331914_2_alg».proof.Proof.Gen.Pre_finite_inputs
import proofs.«144190_j60498909331914_2_alg».proof.Proof.Gen.KernelIdeal.Value
import proofs.«144190_j60498909331914_2_alg».proof.Proof.RefRun
import proofs.«144190_j60498909331914_2_alg».proof.Proof.RefRead
import proofs.«144190_j60498909331914_2_alg».proof.Proof.RefValue
import proofs.«144190_j60498909331914_2_alg».proof.Proof.LayerValue
import Idealize.ShloMosaic.Adequacy
import Idealize.ShloMosaic.Init

noncomputable section

namespace Cert.Proof

open Idealize.ShloMosaic Idealize.SL.Sem Cert.Kernel

/-- At the ideal instance the kernel's result array ends at the layer's output of its arguments (the value of the
    kernel's run) and the reference's at the same function of arguments that agree (the value of its run). -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2]
  exact (Cert.KernelIdeal.LayerValue.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
